-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S100000x64 : Shape := ⟨2, ![100000, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : IVec S2048x2048 32) (main_arg1 : FVec F S100000x64 .f32) (main_arg2 : FVec F S64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S2048x2048 : Shape := ⟨2, ![2048, 2048]⟩
abbrev S100000x64 : Shape := ⟨2, ![100000, 64]⟩
abbrev S64 : Shape := ⟨1, ![64]⟩
abbrev S50000x128 : Shape := ⟨2, ![50000, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2000x128 : Shape := ⟨2, ![2000, 128]⟩
abbrev S_ : Shape := ⟨0, ![]⟩
abbrev S2048x2048x1 : Shape := ⟨3, ![2048, 2048, 1]⟩
abbrev S2048x2048x64 : Shape := ⟨3, ![2048, 2048, 64]⟩

abbrev nBuf : Space → Nat
  | .hbm => 19
  | .vmem => 5
  | .smem => 0
  | _ => 0

abbrev bufTy : (tb : Table) → Fin (tcTables nBuf tb) → BufTy
  | .hbm, ⟨0, _⟩ => ⟨S2048x2048, .i32⟩
  | .hbm, ⟨1, _⟩ => ⟨S100000x64, .f32⟩
  | .hbm, ⟨2, _⟩ => ⟨S64, .f32⟩
  | .hbm, ⟨3, _⟩ => ⟨S50000x128, .f32⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S1x128, .f32⟩
  | .hbm, ⟨8, _⟩ => ⟨S50000x128, .f32⟩
  | .hbm, ⟨9, _⟩ => ⟨S100000x64, .f32⟩
  | .hbm, ⟨10, _⟩ => ⟨S_, .i32⟩
  | .hbm, ⟨11, _⟩ => ⟨S2048x2048, .i32⟩
  | .hbm, ⟨12, _⟩ => ⟨S2048x2048, .i1⟩
  | .hbm, ⟨13, _⟩ => ⟨S_, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S2048x2048x1, .i32⟩
  | .hbm, ⟨18, _⟩ => ⟨S2048x2048x64, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S2000x128, .f32⟩
  | .local _ .vmem, ⟨4, _⟩ => ⟨S2000x128, .f32⟩
  | _, _ => ⟨S2048x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S100000x64_S50000x128 : S100000x64.ShapeCasts S50000x128
  shapeCasts_S64_S1x64 : S64.ShapeCasts S1x64
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S50000x128_S100000x64 : S50000x128.ShapeCasts S100000x64
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  gather_S100000x64_S2048x2048x1_S2048x2048x64_2_0_n_n_0_2_164_wf : GatherDims.WF S100000x64 S2048x2048x1 S2048x2048x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)

variable [Facts₀]

def gather_S100000x64_S2048x2048x1_S2048x2048x64_2_0_n_n_0_2_164 : GatherDims S100000x64 S2048x2048x1 S2048x2048x64 where
  offsetDims := [2]
  collapsedSliceDims := [0]
  operandBatchingDims := []
  startIndicesBatchingDims := []
  startIndexMap := [0]
  indexVectorDim := 2
  sliceSizes := ![1, 64]
  wf := gather_S100000x64_S2048x2048x1_S2048x2048x64_2_0_n_n_0_2_164_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S100000x64 : Shape := ⟨2, ![100000, 64]⟩
abbrev S64 : Shape := ⟨1, ![64]⟩
abbrev S_ : Shape := ⟨0, ![]⟩
abbrev S2048x2048x1 : Shape := ⟨3, ![2048, 2048, 1]⟩
abbrev S2048x2048x64 : Shape := ⟨3, ![2048, 2048, 64]⟩
abbrev S1x1x64 : Shape := ⟨3, ![1, 1, 64]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .i32⟩
  | .hbm, ⟨1, _⟩ => ⟨S100000x64, .f32⟩
  | .hbm, ⟨2, _⟩ => ⟨S64, .f32⟩
  | .hbm, ⟨3, _⟩ => ⟨S_, .i32⟩
  | .hbm, ⟨4, _⟩ => ⟨S2048x2048, .i32⟩
  | .hbm, ⟨5, _⟩ => ⟨S2048x2048, .i1⟩
  | .hbm, ⟨6, _⟩ => ⟨S_, .i32⟩
  | .hbm, ⟨7, _⟩ => ⟨S2048x2048, .i32⟩
  | .hbm, ⟨8, _⟩ => ⟨S2048x2048, .i32⟩
  | .hbm, ⟨9, _⟩ => ⟨S2048x2048, .i32⟩
  | .hbm, ⟨10, _⟩ => ⟨S2048x2048x1, .i32⟩
  | .hbm, ⟨11, _⟩ => ⟨S2048x2048x64, .f32⟩
  | .hbm, ⟨12, _⟩ => ⟨S1x1x64, .f32⟩
  | .hbm, ⟨13, _⟩ => ⟨S2048x2048x64, .f32⟩
  | .hbm, ⟨14, _⟩ => ⟨S2048x2048x64, .f32⟩
  | .hbm, ⟨15, _⟩ => ⟨S_, .f32⟩
  | .hbm, ⟨16, _⟩ => ⟨S2048x2048x64, .f32⟩
  | .hbm, ⟨17, _⟩ => ⟨S2048x2048x64, .f32⟩
  | .hbm, ⟨18, _⟩ => ⟨S_, .f32⟩
  | .hbm, ⟨19, _⟩ => ⟨S2048x2048x64, .f32⟩
  | .hbm, ⟨20, _⟩ => ⟨S2048x2048x64, .f32⟩
  | _, _ => ⟨S2048x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S64_S1x1x64_2 : S64.BroadcastsInDim S1x1x64 (![2] : Fin 1 → Fin S1x1x64.rank)
  bcast_S1x1x64_S2048x2048x64_0_1_2 : S1x1x64.BroadcastsInDim S2048x2048x64 (![0, 1, 2] : Fin 3 → Fin S2048x2048x64.rank)
  bcast_S_S2048x2048x64 : S_.BroadcastsInDim S2048x2048x64 (![] : Fin 0 → Fin S2048x2048x64.rank)
  gather_S100000x64_S2048x2048x1_S2048x2048x64_2_0_n_n_0_2_164_wf : GatherDims.WF S100000x64 S2048x2048x1 S2048x2048x64 [2] [0] [] [0] [] 2 ![1, 64]

variable [Facts₀]

def gather_S100000x64_S2048x2048x1_S2048x2048x64_2_0_n_n_0_2_164 : GatherDims S100000x64 S2048x2048x1 S2048x2048x64 where
  offsetDims := [2]
  collapsedSliceDims := [0]
  operandBatchingDims := []
  startIndicesBatchingDims := []
  startIndexMap := [0]
  indexVectorDim := 2
  sliceSizes := ![1, 64]
  wf := gather_S100000x64_S2048x2048x1_S2048x2048x64_2_0_n_n_0_2_164_wf

class Facts : Prop extends Facts₀ where

variable [Facts]
-- ==== Proof.Prefix.lean ====
/-
  The two arrays the region is launched on, as terms of the arguments.

  Before the region the host re-lays the table `[100000, 64]` as `[50000, 128]` (row-major: two table rows side by
  side in one row of 128 lanes) and the bias `[64]` as one row `[1, 128]` holding the bias twice (`[64] → [1, 64] →
  [2, 64] → [128] → [1, 128]`). Nothing else is written before the region, so these are the contents of the first two
  windows' arrays when the region is entered.
-/
import proofs.«133556_j45002667327785_2_alg».proof.Proof.Gen.KernelIdeal.Frame
import Idealize.ShloMosaic.Lib.StableHlo.Run

noncomputable section

namespace Cert.KernelIdeal.Epilogue

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The bias laid out as the one row of 128 lanes the region reads: the 64 values twice. -/
def biasRow (b : FVec F S64 .f32) : FVec F S1x128 .f32 :=
  shapeCast S1x128 (shapeCast S128 (broadcastInDim S2x64 ![0, 1] bcast_S1x64_S2x64_0_1
    (shapeCast S1x64 b shapeCasts_S64_S1x64)) shapeCasts_S2x64_S128) shapeCasts_S128_S1x128

/-- The table laid out as the 50000 rows of 128 lanes the region reads. -/
def pairedTable (W : FVec F S100000x64 .f32) : FVec F S50000x128 .f32 :=
  shapeCast S50000x128 W shapeCasts_S100000x64_S50000x128

/-- Window 0's array at region entry is the paired table of the table argument. -/
theorem table_at_entry (c : Dev nD) :
    (V m c main_v0 : S50000x128.Idx → Elt F .f32) = pairedTable (m ((c : Thread nD τ).loc main_arg1)) := by
  show StableHlo.after hostOps0 (fun b => m (c, b)) (Proc.devRef .tc main_v0) = _
  after_results
  rfl

/-- Window 1's array at region entry is the bias row of the bias argument. -/
theorem bias_at_entry (c : Dev nD) :
    (V m c main_v4 : S1x128.Idx → Elt F .f32) = biasRow (m ((c : Thread nD τ).loc main_arg2)) := by
  show StableHlo.after hostOps0 (fun b => m (c, b)) (Proc.devRef .tc main_v4) = _
  after_results
  rfl

end Cert.KernelIdeal.Epilogue

end
-- ==== Proof.Entry.lean ====
/-
  One entry of the embedding table after the epilogue.

  Both programs apply the same three scalar steps to a table entry `w` and the bias entry `b` of its column:
  add, take the maximum with zero, add the constant ε (the same 32-bit word on both sides, never evaluated).
  `entry w b` is that value, for any reading of the floats; nothing below depends on which reading it is.
-/
import Idealize.ShloMosaic.PureOps.Ideal

noncomputable section

namespace Cert.Epilogue

open Idealize.ShloMosaic

variable {F : FTy → Type} [FloatOps F]

/-- `max (w + b) 0 + ε`: a table entry after bias, rectification and the added constant. -/
def entry (w b : F .f32) : F .f32 :=
  FloatOps.addf (FloatOps.maximumf (FloatOps.addf w b) (FloatOps.ofBits .f32 0x00000000#32)) (FloatOps.ofBits .f32 0x3727C5AC#32)

end Cert.Epilogue

end
-- ==== Proof.Payload.lean ====
/-
  What the kernel body stores, read at one index of its block.

  The body loads a block of 2000 rows of the paired table (128 lanes: two table rows side by side) and the one row of
  128 paired bias values, broadcasts the bias row down the block, and stores `max (x + bias) 0 + ε`. At row `p`, lane `q`
  the stored value is therefore `entry` of the block's element `(p, q)` and the bias row's element `(0, q)`: the
  shape casts are identities and the broadcast reads lane `q` of its one row.
-/
import proofs.«133556_j45002667327785_2_alg».proof.Proof.Gen.KernelIdeal.Skeleton
import proofs.«133556_j45002667327785_2_alg».proof.Proof.Entry
import Idealize.ShloMosaic.Lib.ValueIdx
import Idealize.ShloMosaic.Lib.Pipeline.Value

noncomputable section

namespace Cert.KernelIdeal.Epilogue

open Cert.KernelIdeal Cert.KernelIdeal.Gen Cert.Epilogue Idealize.ShloMosaic Idealize.ShloMosaic.ValueIdx

variable {F : FTy → Type} [FloatOps F]

/-- The stored vector at `(p, q)` is the entry of the loaded block's `(p, q)` and the bias row's lane `q`. -/
theorem pay_apply (x0 : Vec F S2000x128 .f32) (x1 : Vec F S1x128 .f32) (j : S2000x128.Idx) :
    k0_pay1 x0 x1 j = entry (x0 j) (x1 (ix2 0 (j 1))) := by
  unfold k0_pay1 entry
  show FloatOps.addf (FloatOps.maximumf (FloatOps.addf (shapeCast S2000x128 x0 shapeCasts_S2000x128_S2000x128 j)
      (broadcastTo S2000x128 (shapeCast S1x128 x1 shapeCasts_S1x128_S1x128) broadcasts_S1x128_S2000x128 j)) _) _ = _
  rw [shapeCast_self, shapeCast_self, broadcastTo_apply x1 broadcasts_S1x128_S2000x128 j (ix2 0 (j 1)) (fun a => match a with
    | ⟨0, _⟩ => rfl
    | ⟨1, _⟩ => rfl)]
  rfl

end Cert.KernelIdeal.Epilogue

end
-- ==== Proof.Table.lean ====
/-
  The region's output array as one function of the two arrays it is launched on.

  Grid point `t` (of 25) stages rows `2000 t … 2000 t + 1999` of the paired table, the one bias row, and writes back
  the same rows of the output. By the payload read at an index, what it writes back at local `(p, q)` is `entry` of the
  paired table at `(2000 t + p, q)` and the bias row at `(0, q)`: the block, read through the output window, of the
  single function `pairedOut`. The 25 blocks cover all 50000 rows (row `r` lies in block `r / 2000`), so after the
  region the whole output array is `pairedOut`.
-/
import proofs.«133556_j45002667327785_2_alg».proof.Proof.Gen.KernelIdeal.Frame
import proofs.«133556_j45002667327785_2_alg».proof.Proof.Payload
import Idealize.ShloMosaic.Lib.Pipeline.Value
import Idealize.ShloMosaic.Lib.ValueIdx

noncomputable section

namespace Cert.KernelIdeal.Epilogue

open Cert.KernelIdeal Cert.KernelIdeal.Gen Cert.Epilogue Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- The output array, entry by entry: row `r`, lane `l` holds `entry` of the paired table at `(r, l)` and the bias
    row at lane `l`. -/
def pairedOut (a0 : S50000x128.Idx → Elt F .f32) (a1 : S1x128.Idx → Elt F .f32) : S50000x128.Idx → Elt F .f32 :=
  fun i => entry (a0 i) (a1 (ix2 0 (i 1)))

theorem zeros : (![0, 0] : Fin 2 → Nat) = fun _ => 0 := funext fun a => by fin_cases a <;> rfl

/-- The three index maps over the grid: the table's and the output's blocks are block `t` of the rows and the only
    block of the lanes; the bias row's is its only block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `pairedOut` of the arrays as the region finds them. -/
theorem flushed_eq (c : Dev nD) (t : Fin cfg0.N) :
    (dats m 0 c).flushed 2 t = ((cfg0.win 2).blk t).view.read (Elt F) (pairedOut (V m c main_v0) (V m c main_v4)) := by
  show (cfg0.win 2).cut (grid0.coords t) ((dats m 0 c).after 2 t) = _
  rw [after0_2]
  unfold out0_2
  rw [View.canon_unit_zero zeros]
  simp only [View.ld_unit_zero (S := S2000x128) zeros, View.ld_unit_zero (S := S1x128) zeros]
  obtain ⟨e0, e1, e2, e3, e4, e5⟩ := index_facts t
  funext j
  show k0_pay1 (iblk m c 0 t) (iblk m c 1 t) j
    = pairedOut (V m c main_v0) (V m c main_v4) (((cfg0.win 2).blk t).view.emb j)
  refine (pay_apply (iblk m c 0 t) (iblk m c 1 t) j).trans ?_
  show entry (V m c main_v0 (((cfg0.win 0).blk t).view.emb j)) (V m c main_v4 (((cfg0.win 1).blk t).view.emb (ix2 0 (j 1))))
    = entry (V m c main_v0 (((cfg0.win 2).blk t).view.emb j)) (V m c main_v4 (ix2 0 ((((cfg0.win 2).blk t).view.emb j) 1)))
  have h0 : ((cfg0.win 0).blk t).view.emb j = ((cfg0.win 2).blk t).view.emb j := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (ix2 0 (j 1)) = ix2 0 ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 128 + 1 * (j 1).val = win0_2.index t (1 : Fin 2) * 128 + 1 * (j 1).val; omega
  rw [h0, h1]
  rfl

/-- An index of the output array lies in point `t`'s block iff each coordinate lies in the block's range. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v5).slice (win0_2.rect t)).set ↔ _
  rw [View.set_slice_whole, Rect.mem_set_unit]
  exact Iff.rfl

/-- Every index of the output array lies in the block of the point numbered by its row divided by 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  obtain ⟨e0, e1, e2, e3, e4, e5⟩ := index_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The output array after the region is `pairedOut` of the arrays the region was launched on. -/
theorem final (c : Dev nD) : (dats m 0 c).arrAt 2 cfg0.N = pairedOut (V m c main_v0) (V m c main_v4) :=
  (dats m 0 c).arrAt_eq_of_cover 2 _ (fun t _ => flushed_eq m c t) cover

end Cert.KernelIdeal.Epilogue

end
-- ==== Proof.Tail.lean ====
/-
  The program's result after the host operations that follow the region.

  After the region the host re-lays the output array `[50000, 128]` back to `[100000, 64]`, normalises the index
  array (a negative index has 100000 added), and gathers whole rows of the re-laid array at those indices. None of
  these operations touches the region's arrays, so the result buffer holds the gather of the re-laid `pairedOut` at
  the normalised indices of the index argument as launched.
-/
import proofs.«133556_j45002667327785_2_alg».proof.Proof.Gen.KernelIdeal.Frame
import proofs.«133556_j45002667327785_2_alg».proof.Proof.Table
import Idealize.ShloMosaic.Lib.StableHlo.Run

noncomputable section

namespace Cert.KernelIdeal.Epilogue

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The start indices the gather reads: the index array with 100000 added to its negative entries, with a trailing
    unit axis. -/
def startIndices (x : IVec S2048x2048 32) : IVec S2048x2048x1 32 :=
  broadcastInDim S2048x2048x1 ![0, 1] bcast_S2048x2048_S2048x2048x1_0_1
    (select (cmpi .slt x (broadcastInDim S2048x2048 ![] bcast_S_S2048x2048 (constantI S_ 32 0#32)))
      (addi x (broadcastInDim S2048x2048 ![] bcast_S_S2048x2048 (constantI S_ 32 100000#32))) x)

/-- The output array re-laid as the table's shape: what the gather reads rows of. -/
def relaid (P : FVec F S50000x128 .f32) : FVec F S100000x64 .f32 :=
  shapeCast S100000x64 P shapeCasts_S50000x128_S100000x64

/-- The result buffer after the host tail. -/
theorem tail_result (c : Dev nD) :
    Pipeline.afterTail₀ cfgs (dats m) 0 (V0 m) [hostOps1] c main_v13
      = Host.gather gather_S100000x64_S2048x2048x1_S2048x2048x64_2_0_n_n_0_2_164
          (relaid (pairedOut (V m c main_v0) (V m c main_v4)))
          (startIndices (m ((c : Thread nD τ).loc main_arg0))) := by
  unfold Pipeline.afterTail₀
  show StableHlo.after hostOps1 _ (Proc.devRef .tc main_v13) = _
  after_results
  have hA : Pipeline.withArrays (cfgs 0).spec c (V0 m c) (fun w => (dats m 0 c).arrAt w (cfgs 0).N) (Proc.devRef .tc main_v5)
      = pairedOut (V m c main_v0) (V m c main_v4) :=
    (Pipeline.withArrays_arr spec0 launch0.win.arr_inj c _ _ 2).trans (final m c)
  have hX : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  rw [hA, hX]
  rfl

/-- The program's run with its result named: every weakly fair execution terminates, the result buffer holding the
    gather above and the three arguments as launched. -/
theorem run : θ_run defs (onTc (τ := τ) (main (F := F))) ⟨m, fun _ => 0, ρ⟩ fun r => ∀ c : Dev nD,
      r.2.mem ((c.tc : Thread nD τ).loc main_v13)
        = Host.gather gather_S100000x64_S2048x2048x1_S2048x2048x64_2_0_n_n_0_2_164
            (relaid (pairedOut (V m c main_v0) (V m c main_v4)))
            (startIndices (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Epilogue

end
-- ==== Proof.Relaid.lean ====
/-
  The re-laid output array, entry by entry, in the table's own coordinates.

  Table entry `(n, d)` sits in the paired layout at row-major position `64 n + d`, that is at row `(64 n + d) / 128`,
  lane `(64 n + d) % 128`. Re-laying the output back to `[100000, 64]` reads that position, the paired table there is
  the table's `(n, d)`, and the bias row's lane `l` holds the bias at `l % 64`; since `d < 64`,
  `(64 n + d) % 128 % 64 = d`. So the re-laid array at `(n, d)` is `entry` of the table's `(n, d)` and the bias at `d`.
-/
import proofs.«133556_j45002667327785_2_alg».proof.Proof.Prefix
import proofs.«133556_j45002667327785_2_alg».proof.Proof.Tail
import Idealize.ShloMosaic.Lib.Pipeline.Value
import Idealize.ShloMosaic.Lib.ValueIdx

noncomputable section

namespace Cert.KernelIdeal.Epilogue

open Cert.KernelIdeal Cert.KernelIdeal.Gen Cert.Epilogue Idealize.ShloMosaic Idealize.ShloMosaic.ValueIdx

variable {F : FTy → Type} [FloatOps F]

/-- Lane `l` of the bias row is the bias at `l % 64`. -/
theorem biasRow_apply (b : FVec F S64 .f32) (l : Fin 128) :
    biasRow b (ix2 0 l) = b (ix1 ⟨l.val % 64, Nat.mod_lt _ (by decide)⟩) := by
  have hl : l.val < 128 := l.isLt
  unfold biasRow
  rw [shapeCast_apply _ shapeCasts_S128_S1x128 (ix2 0 l) (ix1 l) (by
    rw [Shape.rowMajor_val_one, Shape.rowMajor_val_two]
    show l.val = 0 * 128 + l.val
    omega)]
  rw [shapeCast_apply _ shapeCasts_S2x64_S128 (ix1 l)
    (ix2 ⟨l.val / 64, by omega⟩ ⟨l.val % 64, Nat.mod_lt _ (by decide)⟩) (by
    rw [Shape.rowMajor_val_one, Shape.rowMajor_val_two]
    show l.val / 64 * 64 + l.val % 64 = l.val
    omega)]
  rw [broadcastInDim_apply _ bcast_S1x64_S2x64_0_1 _ (ix2 ⟨l.val / 64, by omega⟩ ⟨l.val % 64, Nat.mod_lt _ (by decide)⟩)
    (ix2 0 ⟨l.val % 64, Nat.mod_lt _ (by decide)⟩) (fun a => match a with
      | ⟨0, _⟩ => rfl
      | ⟨1, _⟩ => rfl)]
  rw [shapeCast_apply b shapeCasts_S64_S1x64 (ix2 0 ⟨l.val % 64, Nat.mod_lt _ (by decide)⟩)
    (ix1 ⟨l.val % 64, Nat.mod_lt _ (by decide)⟩) (by
    rw [Shape.rowMajor_val_one, Shape.rowMajor_val_two]
    show l.val % 64 = 0 * 64 + l.val % 64
    omega)]

/-- The re-laid output array at table coordinates `(n, d)`. -/
theorem relaid_apply (W : FVec F S100000x64 .f32) (b : FVec F S64 .f32) (j : S100000x64.Idx) :
    relaid (pairedOut (pairedTable W) (biasRow b)) j = entry (W j) (b (ix1 (j 1))) := by
  have hj0 : (j 0).val < 100000 := (j 0).isLt
  have hj1 : (j 1).val < 64 := (j 1).isLt
  have hk : (S50000x128.rowMajor (ix2 (⟨((j 0).val * 64 + (j 1).val) / 128, by omega⟩ : Fin 50000)
      (⟨((j 0).val * 64 + (j 1).val) % 128, Nat.mod_lt _ (by decide)⟩ : Fin 128))).val = (S100000x64.rowMajor j).val := by
    rw [Shape.rowMajor_val_two, Shape.rowMajor_val_two]
    show ((j 0).val * 64 + (j 1).val) / 128 * 128 + ((j 0).val * 64 + (j 1).val) % 128 = (j 0).val * 64 + (j 1).val
    omega
  unfold relaid
  rw [shapeCast_apply _ shapeCasts_S50000x128_S100000x64 j _ hk]
  unfold pairedOut pairedTable
  rw [shapeCast_apply W shapeCasts_S100000x64_S50000x128 _ j hk.symm]
  show entry (W j) (biasRow b (ix2 0 (⟨((j 0).val * 64 + (j 1).val) % 128, Nat.mod_lt _ (by decide)⟩ : Fin 128))) = _
  rw [biasRow_apply]
  have hd : (⟨((j 0).val * 64 + (j 1).val) % 128 % 64, Nat.mod_lt _ (by decide)⟩ : Fin 64) = j 1 :=
    Fin.ext (by show ((j 0).val * 64 + (j 1).val) % 128 % 64 = (j 1).val; omega)
  rw [hd]

end Cert.KernelIdeal.Epilogue

end
-- ==== Proof.LibGatherRows.lean ====
/-
  A gather of whole rows of a table, read by columns.

  `x[idx]` for a table `x : [N, D]` and an integer array `idx : [R, C]` lowers to a gather with offset axis 2,
  collapsed axis 0, start index map `[0]`, index vector axis 2 and slice sizes `[1, D]` over the indices as
  `[R, C, 1]`. Result element `(r, c, d)` is the table at `(row, d)` for a row that depends on `idx`, `r` and `c`
  only: the column of the element read is the result's last coordinate. Hence an operation applied to every entry of
  the table, depending on the entry's column but not on its row, may be applied before or after the gather.
-/
import Idealize.ShloMosaic.PureOps.Ideal

noncomputable section

namespace Idealize.ShloMosaic.GatherRows

open Idealize.ShloMosaic

variable {α β : Type}

/-- The dimension numbers of a gather of whole rows of `[N, D]` at start indices `[R, C, 1]`, result `[R, C, D]`. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The column axis is not named by the start index map `[0]`. -/
theorem col_not_mapped : (1 : Fin 2) ∉ ([0] : List (Fin 2)) := by decide
/-- The column axis is the one table axis neither collapsed nor batching. -/
theorem col_kept : (1 : Fin 2) ∈ (List.finRange 2).filter (fun a : Fin 2 => a ∉ ([0] ++ [] : List (Fin 2))) := by decide

/-- The table index a result index reads has the result's last coordinate as its column: on the table's axis 1 the
    start is 0 (the start index map names axis 0 only), there is no batching, and the offset is the result's
    coordinate on its one offset axis. -/
theorem operandIdx_col {N D R C w : Nat}
    (wf : GatherDims.WF ⟨2, ![N, D]⟩ ⟨3, ![R, C, 1]⟩ ⟨3, ![R, C, D]⟩ [2] [0] [] [0] [] 2 ![1, D])
    (y : (⟨3, ![R, C, D]⟩ : Shape).Idx) (idx : IVec ⟨3, ![R, C, 1]⟩ w) :
    ((rowDims N D R C wf).operandIdx y idx 1).val = (y 2).val := by
  show (rowDims N D R C wf).start y idx 1 + (rowDims N D R C wf).batchCoord y 1 + (rowDims N D R C wf).offCoord y 1 = (y 2).val
  have h1 : (1 : Fin 2) ∉ (rowDims N D R C wf).startIndexMap := col_not_mapped
  have hs : (rowDims N D R C wf).start y idx 1 = 0 := by
    unfold GatherDims.start
    rw [dif_neg h1]
  have hk : (1 : Fin 2) ∈ (rowDims N D R C wf).sKept := col_kept
  have ho : (rowDims N D R C wf).offCoord y 1 = (y 2).val := by
    unfold GatherDims.offCoord
    rw [dif_pos hk]
    rfl
  rw [hs, (rowDims N D R C wf).batchCoord_eq_zero y 1 List.not_mem_nil, ho]
  omega

/-- A map of the table's entries that depends on the entry's column only commutes with the gather of rows. -/
theorem gather_map_col {N D R C w : Nat}
    (wf : GatherDims.WF ⟨2, ![N, D]⟩ ⟨3, ![R, C, 1]⟩ ⟨3, ![R, C, D]⟩ [2] [0] [] [0] [] 2 ![1, D])
    (f : Fin D → α → β) (x : (⟨2, ![N, D]⟩ : Shape).Idx → α) (idx : IVec ⟨3, ![R, C, 1]⟩ w)
    (y : (⟨3, ![R, C, D]⟩ : Shape).Idx) :
    Host.gather (rowDims N D R C wf) (fun j => f (j 1) (x j)) idx y
      = f (y 2) (Host.gather (rowDims N D R C wf) x idx y) := by
  show f ((rowDims N D R C wf).operandIdx y idx 1) (x ((rowDims N D R C wf).operandIdx y idx))
    = f (y 2) (x ((rowDims N D R C wf).operandIdx y idx))
  rw [show (rowDims N D R C wf).operandIdx y idx 1 = y 2 from Fin.ext (operandIdx_col wf y idx)]

end Idealize.ShloMosaic.GatherRows

end
-- ==== Proof.Bridge.lean ====
/-
  The two programs compute one function of the arguments.

  Kernel: the gather, at the normalised indices, of rows of the re-laid output array, whose entry `(n, d)` is `entry` of
  the table's `(n, d)` and the bias at `d`. A map of table entries that depends on the column only commutes with a
  gather of whole rows, so result element `(r, c, d)` is `entry` of the gathered table row's element `d` and the bias
  at `d`.
  Reference: gathers rows of the table itself at the same normalised indices, adds the bias broadcast along the last
  axis, takes the maximum with zero and adds the same constant: `entry` of the same two values.
  No property of the arithmetic is used: the two sides apply the same scalar steps in the same order to the same
  operands, so the equation holds for every reading of the floats, at the infinities too.
-/
import proofs.«133556_j45002667327785_2_alg».proof.Proof.Relaid
import proofs.«133556_j45002667327785_2_alg».proof.Proof.LibGatherRows
import proofs.«133556_j45002667327785_2_alg».proof.Proof.Gen.ReferenceIdeal.Read

noncomputable section

namespace Cert.KernelIdeal.Epilogue

open Cert.KernelIdeal Cert.KernelIdeal.Gen Cert.Epilogue Idealize.ShloMosaic Idealize.ShloMosaic.ValueIdx

variable {F : FTy → Type} [FloatOps F]

/-- The kernel's result at `(r, c, d)`: `entry` of the gathered table row's element `d` and the bias at `d`. -/
theorem kernel_apply (x0 : IVec S2048x2048 32) (W : FVec F S100000x64 .f32) (b : FVec F S64 .f32) (y : S2048x2048x64.Idx) :
    Host.gather gather_S100000x64_S2048x2048x1_S2048x2048x64_2_0_n_n_0_2_164
        (relaid (pairedOut (pairedTable W) (biasRow b))) (startIndices x0) y
      = entry (Host.gather gather_S100000x64_S2048x2048x1_S2048x2048x64_2_0_n_n_0_2_164 W (startIndices x0) y)
          (b (ix1 (y 2))) := by
  have e : relaid (pairedOut (pairedTable W) (biasRow b)) = fun j => entry (W j) (b (ix1 (j 1))) :=
    funext (relaid_apply W b)
  rw [e]
  exact GatherRows.gather_map_col gather_S100000x64_S2048x2048x1_S2048x2048x64_2_0_n_n_0_2_164_wf
    (fun d w => entry w (b (ix1 d))) W (startIndices x0) y

/-- The reference's result at `(r, c, d)`: `entry` of its gathered table row's element `d` and the bias at `d`. -/
theorem reference_apply (x0 : IVec S2048x2048 32) (W : FVec F S100000x64 .f32) (b : FVec F S64 .f32) (y : S2048x2048x64.Idx) :
    Cert.ReferenceIdeal.Read.val_main_v12 (F := F) x0 W b y
      = entry (Cert.ReferenceIdeal.Read.val_main_v6 (F := F) x0 W y) (b (ix1 (y 2))) := by
  rw [Cert.ReferenceIdeal.Read.val_main_v12_apply, Cert.ReferenceIdeal.Read.val_main_v10_apply,
    Cert.ReferenceIdeal.Read.val_main_v9_apply, Cert.ReferenceIdeal.Read.val_main_v8_apply,
    Cert.ReferenceIdeal.Read.val_main_v7_apply, Cert.ReferenceIdeal.Read.val_main_call0_v0_apply,
    Cert.ReferenceIdeal.Read.val_main_call0_cst_apply, Cert.ReferenceIdeal.Read.val_main_v11_apply,
    Cert.ReferenceIdeal.Read.val_main_cst_apply]
  have hi : Cert.ReferenceIdeal.Read.idx_main_v7 (Cert.ReferenceIdeal.Read.idx_main_v8 y) = ix1 (y 2) :=
    funext fun a => match a with | ⟨0, _⟩ => rfl
  rw [hi]
  rfl

/-- The kernel's result array is the reference's, for any arguments. -/
theorem result_eq (x0 : IVec S2048x2048 32) (W : FVec F S100000x64 .f32) (b : FVec F S64 .f32) :
    Host.gather gather_S100000x64_S2048x2048x1_S2048x2048x64_2_0_n_n_0_2_164
        (relaid (pairedOut (pairedTable W) (biasRow b))) (startIndices x0)
      = Cert.ReferenceIdeal.Read.val_main_v12 (F := F) x0 W b := by
  funext y
  rw [kernel_apply, reference_apply]
  rfl

end Cert.KernelIdeal.Epilogue

end
-- ==== Proof.lean ====
/-
  The kernel and its reference agree: an embedding lookup with bias, rectification and an added constant.

  The reference gathers rows of the table `W : [100000, 64]` at the indices `x : [2048, 2048]` (a negative index has
  100000 added; the gather clamps), adds the bias `b : [64]` along the last axis, takes the maximum with zero and
  adds a constant ε. The kernel applies bias, maximum and ε to the WHOLE table first — on the table re-laid as
  `[50000, 128]`, two rows side by side, against the bias repeated twice, 2000 rows per grid point over 25 points —,
  re-lays the result back to `[100000, 64]`, and gathers its rows at the same normalised indices.

  The two agree because the per-entry operation depends on the entry and on its column only, and a gather of whole
  rows keeps columns: applying it before or after the gather gives the same array. The re-laying is undone by the
  re-laying back, and lane `(64 n + d) % 128` of the doubled bias is the bias at `d`. Both sides perform the same
  scalar steps in the same order on the same operands and share the constant's word, so no law of arithmetic — and
  hence no finiteness of the inputs — is used.

  The modules: `Entry` (the scalar operation), `Payload` (the kernel body's stored value at an index), `Prefix`
  (the arrays the region is launched on), `Table` (the region's output array as one function), `Tail` (the result
  after the host operations that follow, and the program's run with the result named), `Relaid` (that array in the
  table's coordinates), `LibGatherRows` (a column-wise map commutes with a gather of rows), `Bridge` (the two
  results are one function). The three frames are the generated ones (the reference's is its generated run with the
  result dropped); the idealisation rewrote no operation, so `preserves` is trivial.
-/
import proofs.«133556_j45002667327785_2_alg».proof.Defs
import proofs.«133556_j45002667327785_2_alg».proof.Proof.Gen.Kernel
import proofs.«133556_j45002667327785_2_alg».proof.Proof.Gen.Kernel.Skeleton
import proofs.«133556_j45002667327785_2_alg».proof.Proof.Gen.Kernel.Launch
import proofs.«133556_j45002667327785_2_alg».proof.Proof.Gen.Kernel.Points
import proofs.«133556_j45002667327785_2_alg».proof.Proof.Gen.Kernel.Frame
import proofs.«133556_j45002667327785_2_alg».proof.Proof.Gen.KernelIdeal
import proofs.«133556_j45002667327785_2_alg».proof.Proof.Gen.KernelIdeal.Skeleton
import proofs.«133556_j45002667327785_2_alg».proof.Proof.Gen.KernelIdeal.Launch
import proofs.«133556_j45002667327785_2_alg».proof.Proof.Gen.KernelIdeal.Points
import proofs.«133556_j45002667327785_2_alg».proof.Proof.Gen.KernelIdeal.Frame
import proofs.«133556_j45002667327785_2_alg».proof.Proof.Gen.ReferenceIdeal
import proofs.«133556_j45002667327785_2_alg».proof.Proof.Gen.ReferenceIdeal.Run
import proofs.«133556_j45002667327785_2_alg».proof.Proof.Gen.ReferenceIdeal.Read
import proofs.«133556_j45002667327785_2_alg».proof.Proof.Gen.Pre_finite_inputs
import proofs.«133556_j45002667327785_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the same result array: the kernel's run
    names its result as the gather of the re-laid epilogue table, the reference's as its composed term, and the two
    are one function of the arguments (`result_eq`). -/
theorem algebraic : Cert.algebraic_KernelIdeal_ReferenceIdeal := by
  intro m ρ m' ρ' _ hagree
  refine ⟨_, Cert.KernelIdeal.Epilogue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2,
    Cert.KernelIdeal.Epilogue.table_at_entry, Cert.KernelIdeal.Epilogue.bias_at_entry]
  exact (Cert.KernelIdeal.Epilogue.result_eq _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
